-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1677721 : Shape := ⟨1, ![1677721]⟩
abbrev S2048x8192 : Shape := ⟨2, ![2048, 8192]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1677721 : S_.BroadcastsInDim S1677721 (![] : Fin 0 → Fin S1677721.rank)
  reducesTo_S1677721_S_d0 : S1677721.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S4096x2048 .f32) (main_arg1 : FVec F S1677721 .f32) (main_arg2 : IVec S2048x8192 32) (main_arg3 : FVec F S2048x8192 .f32) (main_arg4 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1677721 .f32 := Host.absf main_arg1
  let main_cst_0 : FVec F S_ .f32 := constant S_ .f32 0x7F800000#32
  let main_v5 : FVec F S1677721 .f32 := broadcastInDim S1677721 ![] bcast_S_S1677721 main_cst_0
  let main_v6 : IVec S1677721 1 := cmpf .olt main_v4 main_v5
  let main_c_1 : IVec S_ 1 := constantI S_ 1 1#1
  let main_v7 : IVec S_ 1 := (fun x v => Host.reduce IntOp.andi x v reducesTo_S1677721_S_d0 h_S_) main_v6 main_c_1
  let main_v8 : IVec S_ 1 := andi main_v3 main_v7
  let main_v9 : FVec F S2048x8192 .f32 := Host.absf main_arg3
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S8192 .f32 := Host.absf main_arg4
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S4096x2048 : Shape := ⟨2, ![4096, 2048]⟩
abbrev S1677721 : Shape := ⟨1, ![1677721]⟩
abbrev S2048x8192 : Shape := ⟨2, ![2048, 8192]⟩
abbrev S8192 : Shape := ⟨1, ![8192]⟩
abbrev S_ : Shape := ⟨0, ![]⟩
abbrev S2048x8192x1 : Shape := ⟨3, ![2048, 8192, 1]⟩
abbrev S1x8192 : Shape := ⟨2, ![1, 8192]⟩
abbrev S4096x8192 : Shape := ⟨2, ![4096, 8192]⟩
abbrev S512x2048 : Shape := ⟨2, ![512, 2048]⟩
abbrev S2048x2048 : Shape := ⟨2, ![2048, 2048]⟩
abbrev S1x2048 : Shape := ⟨2, ![1, 2048]⟩

abbrev nBuf : Space → Nat
  | .hbm => 19
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1677721, .f32⟩
  | .hbm, ⟨2, _⟩ => ⟨S2048x8192, .i32⟩
  | .hbm, ⟨3, _⟩ => ⟨S2048x8192, .f32⟩
  | .hbm, ⟨4, _⟩ => ⟨S8192, .f32⟩
  | .hbm, ⟨5, _⟩ => ⟨S_, .i32⟩
  | .hbm, ⟨6, _⟩ => ⟨S2048x8192, .i32⟩
  | .hbm, ⟨7, _⟩ => ⟨S2048x8192, .i1⟩
  | .hbm, ⟨8, _⟩ => ⟨S_, .i32⟩
  | .hbm, ⟨9, _⟩ => ⟨S2048x8192, .i32⟩
  | .hbm, ⟨10, _⟩ => ⟨S2048x8192, .i32⟩
  | .hbm, ⟨11, _⟩ => ⟨S2048x8192, .i32⟩
  | .hbm, ⟨12, _⟩ => ⟨S2048x8192x1, .i32⟩
  | .hbm, ⟨13, _⟩ => ⟨S2048x8192, .f32⟩
  | .hbm, ⟨14, _⟩ => ⟨S2048x8192, .f32⟩
  | .hbm, ⟨15, _⟩ => ⟨S4096x2048, .bf16⟩
  | .hbm, ⟨16, _⟩ => ⟨S2048x8192, .bf16⟩
  | .hbm, ⟨17, _⟩ => ⟨S1x8192, .f32⟩
  | .hbm, ⟨18, _⟩ => ⟨S4096x8192, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  bitsLt_bf16_f32 : FTy.bits .bf16 < FTy.bits .f32
  shapeCasts_S8192_S1x8192 : S8192.ShapeCasts S1x8192
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  gather_S1677721_S2048x8192x1_S2048x8192_n_0_n_n_0_2_1_wf : GatherDims.WF S1677721 S2048x8192x1 S2048x8192 [] [0] [] [0] [] 2 ![1]
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x8192.size a
  hwx0_1 : ∀ i : grid0.Coords, EltTy.bits .bf16 = 32 ∨ (Rect.block (s := S2048x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .f32 = 32 ∨ (Rect.block (s := S4096x8192) S512x2048.size (cc0_transform_3 i) (hinb0_3 i)).WholeWords (EltTy.packing .f32)

variable [Facts₀]

def gather_S1677721_S2048x8192x1_S2048x8192_n_0_n_n_0_2_1 : GatherDims S1677721 S2048x8192x1 S2048x8192 where
  offsetDims := []
  collapsedSliceDims := [0]
  operandBatchingDims := []
  startIndicesBatchingDims := []
  startIndexMap := [0]
  indexVectorDim := 2
  sliceSizes := ![1]
  wf := gather_S1677721_S2048x8192x1_S2048x8192_n_0_n_n_0_2_1_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v8) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1677721 : Shape := ⟨1, ![1677721]⟩
abbrev S2048x8192 : Shape := ⟨2, ![2048, 8192]⟩
abbrev S8192 : Shape := ⟨1, ![8192]⟩
abbrev S_ : Shape := ⟨0, ![]⟩
abbrev S2048x8192x1 : Shape := ⟨3, ![2048, 8192, 1]⟩
abbrev S4096x8192 : Shape := ⟨2, ![4096, 8192]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1677721, .f32⟩
  | .hbm, ⟨2, _⟩ => ⟨S2048x8192, .i32⟩
  | .hbm, ⟨3, _⟩ => ⟨S2048x8192, .f32⟩
  | .hbm, ⟨4, _⟩ => ⟨S8192, .f32⟩
  | .hbm, ⟨5, _⟩ => ⟨S_, .i32⟩
  | .hbm, ⟨6, _⟩ => ⟨S2048x8192, .i32⟩
  | .hbm, ⟨7, _⟩ => ⟨S2048x8192, .i1⟩
  | .hbm, ⟨8, _⟩ => ⟨S_, .i32⟩
  | .hbm, ⟨9, _⟩ => ⟨S2048x8192, .i32⟩
  | .hbm, ⟨10, _⟩ => ⟨S2048x8192, .i32⟩
  | .hbm, ⟨11, _⟩ => ⟨S2048x8192, .i32⟩
  | .hbm, ⟨12, _⟩ => ⟨S2048x8192x1, .i32⟩
  | .hbm, ⟨13, _⟩ => ⟨S2048x8192, .f32⟩
  | .hbm, ⟨14, _⟩ => ⟨S2048x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  gather_S1677721_S2048x8192x1_S2048x8192_n_0_n_n_0_2_1_wf : GatherDims.WF S1677721 S2048x8192x1 S2048x8192 [] [0] [] [0] [] 2 ![1]
  dot_S4096x2048_S2048x8192_S4096x8192_1_0_0_1_n_n_wf : DotDims.WF S4096x2048 S2048x8192 S4096x8192 [1] [0] [0] [1] [] []

variable [Facts₀]

def gather_S1677721_S2048x8192x1_S2048x8192_n_0_n_n_0_2_1 : GatherDims S1677721 S2048x8192x1 S2048x8192 where
  offsetDims := []
  collapsedSliceDims := [0]
  operandBatchingDims := []
  startIndicesBatchingDims := []
  startIndexMap := [0]
  indexVectorDim := 2
  sliceSizes := ![1]
  wf := gather_S1677721_S2048x8192x1_S2048x8192_n_0_n_n_0_2_1_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.LinearSpec.lean ====
/-
  The hashed-weight linear layer as ONE function of three arrays.

  Entry (b, o) of the result is the inner product of row b of the activations with column o of the weight table,
  plus entry o of the bias:

      out[b, o] = Σ_k x[b, k] · W[k, o] + bias[o]          (k over the 2048 input features),

  computed on the extended reals. The weight table W is an argument here and is never opened: both programs build
  it from the hashed gather and the sign matrix in the same way, and neither the sum nor the added bias looks inside
  it. Commutativity and associativity of + are all that the comparison of the two programs uses, so no finiteness
  of the inputs is needed anywhere.
-/
import Idealize.ShloMosaic.Lib.ValueIdx
import Idealize.ShloMosaic.PureOps.Ideal

noncomputable section

namespace Cert.Linear

open Idealize.ShloMosaic Idealize.ShloMosaic.ValueIdx

/-- One entry of the layer: row `b` of `x` against column `o` of `W`, plus `bias[o]`. -/
def entry (x : FVec Ideal ⟨2, ![4096, 2048]⟩ .f32) (W : FVec Ideal ⟨2, ![2048, 8192]⟩ .f32)
    (bias : FVec Ideal ⟨1, ![8192]⟩ .f32) (b : Fin 4096) (o : Fin 8192) : EReal :=
  (∑ k : Fin 2048, x (ix2 b k) * W (ix2 k o)) + bias (ix1 o)

/-- The whole result array, index by index. -/
def linear (x : FVec Ideal ⟨2, ![4096, 2048]⟩ .f32) (W : FVec Ideal ⟨2, ![2048, 8192]⟩ .f32)
    (bias : FVec Ideal ⟨1, ![8192]⟩ .f32) : FVec Ideal ⟨2, ![4096, 8192]⟩ .f32 :=
  fun i => entry x W bias ⟨(i 0).val, (i 0).isLt⟩ ⟨(i 1).val, (i 1).isLt⟩

/-- The array read at the index with coordinates `(b, o)`. -/
theorem linear_ix2 (x : FVec Ideal ⟨2, ![4096, 2048]⟩ .f32) (W : FVec Ideal ⟨2, ![2048, 8192]⟩ .f32)
    (bias : FVec Ideal ⟨1, ![8192]⟩ .f32) (b : Fin 4096) (o : Fin 8192) :
    linear x W bias (ix2 b o) = entry x W bias b o := rfl

end Cert.Linear

end
-- ==== Proof.BodyEntry.lean ====
/-
  What the kernel body stores, read at one entry of its output block.

  The body multiplies the 512 × 2048 block of activations with the 2048 × 2048 block of the weight table into a
  zero accumulator and adds the bias row broadcast over the 512 rows. At entry (p, q) of the block that is

      Σ_k xblk[p, k] · wblk[k, q] + brow[0, q]              (k over the 2048 input features):

  a matrix product into a zero accumulator is the plain sum of products on the extended reals, the shape casts of
  the body are casts of a shape to itself, and the broadcast reads the one row at the column.
-/
import proofs.«144511_j21603685499740_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- On the left operand's free axis (its rows) the operand index of the product is the output's row. -/
theorem lhs_row (j : S512x2048.Idx) (kk : dot_S512x2048_S2048x2048_S512x2048_1_0_0_1_n_n.contr.Idx) :
    (dot_S512x2048_S2048x2048_S512x2048_1_0_0_1_n_n.lhsIdx j kk 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- On the right operand's free axis (its columns) the operand index of the product is the output's column. -/
theorem rhs_col (j : S512x2048.Idx) (kk : dot_S512x2048_S2048x2048_S512x2048_1_0_0_1_n_n.contr.Idx) :
    (dot_S512x2048_S2048x2048_S512x2048_1_0_0_1_n_n.rhsIdx j kk 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The product of the two blocks into a zero accumulator, at entry (p, q): the sum over the contracted axis,
    spelt over `k : Fin 2048` with the operands read at (p, k) and (k, q). -/
theorem matmul_entry (x0 : FVec Ideal S512x2048 .bf16) (x1 : FVec Ideal S2048x2048 .bf16) (p : Fin 512) (q : Fin 2048) :
    matmul dot_S512x2048_S2048x2048_S512x2048_1_0_0_1_n_n none x0 x1 (constant (F := Ideal) S512x2048 .f32 0x00000000#32) (ix2 p q)
      = ∑ k : Fin 2048, x0 (ix2 p k) * x1 (ix2 k q) := by
  refine (Ideal.matmul_constant_zero_apply dot_S512x2048_S2048x2048_S512x2048_1_0_0_1_n_n none x0 x1 (ix2 p q)).trans ?_
  rw [← Equiv.sum_comp (ValueIdx.contrEquiv1 dot_S512x2048_S2048x2048_S512x2048_1_0_0_1_n_n 2048 rfl rfl).symm]
  refine Finset.sum_congr rfl fun k _ => ?_
  have hk := ValueIdx.contrEquiv1_symm_val dot_S512x2048_S2048x2048_S512x2048_1_0_0_1_n_n 2048 rfl rfl k
  -- the left operand's index: the output's row on the free axis, the contraction position on the contracted one
  have el : dot_S512x2048_S2048x2048_S512x2048_1_0_0_1_n_n.lhsIdx (ix2 p q)
      ((ValueIdx.contrEquiv1 dot_S512x2048_S2048x2048_S512x2048_1_0_0_1_n_n 2048 rfl rfl).symm k) = ix2 p k :=
    funext fun a => Fin.ext (by
      match a with
      | ⟨0, _⟩ => exact lhs_row _ _
      | ⟨1, _⟩ => exact (dot_S512x2048_S2048x2048_S512x2048_1_0_0_1_n_n.lhsIdx_val_of_single rfl _ _).trans hk)
  -- the right operand's index: the contraction position on the contracted axis, the output's column on the free one
  have er : dot_S512x2048_S2048x2048_S512x2048_1_0_0_1_n_n.rhsIdx (ix2 p q)
      ((ValueIdx.contrEquiv1 dot_S512x2048_S2048x2048_S512x2048_1_0_0_1_n_n 2048 rfl rfl).symm k) = ix2 k q :=
    funext fun a => Fin.ext (by
      match a with
      | ⟨0, _⟩ => exact (dot_S512x2048_S2048x2048_S512x2048_1_0_0_1_n_n.rhsIdx_val_of_single rfl _ _).trans hk
      | ⟨1, _⟩ => exact rhs_col _ _)
  rw [el, er]

/-- The body's stored value at entry (p, q) of the output block: the row of the activation block against the
    column of the weight block, plus the bias row's entry at the column. -/
theorem pay_entry (x0 : FVec Ideal S512x2048 .bf16) (x1 : FVec Ideal S2048x2048 .bf16) (x2 : FVec Ideal S1x2048 .f32)
    (p : Fin 512) (q : Fin 2048) :
    k0_pay1 (F := Ideal) x0 x1 x2 (ix2 p q) = (∑ k : Fin 2048, x0 (ix2 p k) * x1 (ix2 k q)) + x2 (ix2 (0 : Fin 1) q) := by
  unfold k0_pay1
  simp only [shapeCast_self]
  refine (addf_apply _ _ (ix2 p q)).trans ?_
  refine congrArg₂ (· + ·) (matmul_entry x0 x1 p q) ?_
  exact broadcastTo_1b_ab_apply x2 broadcasts_S1x2048_S512x2048 p q

end Cert.KernelIdeal.Body

end
-- ==== Proof.HostArrays.lean ====
/-
  The three arrays the kernel's windows stage, as the region finds them.

  Before the call the program rounds the activations to bf16, builds the weight table (the hashed gather times the
  sign matrix) and rounds it to bf16, and views the bias vector as a one-row matrix. On the extended reals a
  change of float format is the identity, so the first array IS the activations and the second IS the weight table;
  the third, read at (0, o), is the bias at o.
-/
import proofs.«144511_j21603685499740_1_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

/-- The weight table as the host operations build it from the hashed table `w`, the index array `idx` and the
    sign matrix `g`: a negative index is first moved up by the table's length, the table is gathered at the
    indices, and the gathered entries are multiplied by the signs. Stated at any float instance; never opened. -/
def weights {F : FTy → Type} [FloatOps F] (w : (⟨S1677721, .f32⟩ : BufTy).Contents (Elt F))
    (idx : (⟨S2048x8192, .i32⟩ : BufTy).Contents (Elt F)) (g : (⟨S2048x8192, .f32⟩ : BufTy).Contents (Elt F)) :
    (⟨S2048x8192, .f32⟩ : BufTy).Contents (Elt F) :=
  mulf (Host.gather gather_S1677721_S2048x8192x1_S2048x8192_n_0_n_n_0_2_1 w
    (broadcastInDim S2048x8192x1 ![0, 1] bcast_S2048x8192_S2048x8192x1_0_1
      (select (cmpi .slt idx (broadcastInDim S2048x8192 ![] bcast_S_S2048x8192 (constantI S_ 32 0#32)))
        (addi idx (broadcastInDim S2048x8192 ![] bcast_S_S2048x8192 (constantI S_ 32 1677721#32))) idx))) g

variable (m : (ℓ : Loc nD τ sig) → Buf (Elt Ideal) ℓ)

/-- The first staged array is the activations: their rounding to bf16 is the identity on the extended reals. -/
theorem V_acts (c : Dev nD) :
    @Eq (S4096x2048.Idx → EReal) (V m c main_v8) (m ((c : Thread nD τ).loc main_arg0)) := by
  have e : @Eq (FVec Ideal S4096x2048 .bf16) (V m c main_v8)
      (truncf .bf16 (m ((c : Thread nD τ).loc main_arg0) : FVec Ideal S4096x2048 .f32) bitsLt_bf16_f32) := by
    dsimp only [Gen.V, Gen.hostOps0]; after_results <;> rfl
  rw [e]
  exact funext fun i => truncf_apply _ _ i

/-- The second staged array is the weight table: its rounding to bf16 is the identity on the extended reals. -/
theorem V_weights (c : Dev nD) :
    @Eq (S2048x8192.Idx → EReal) (V m c main_v9)
      (weights (F := Ideal) (m ((c : Thread nD τ).loc main_arg1)) (m ((c : Thread nD τ).loc main_arg2)) (m ((c : Thread nD τ).loc main_arg3))) := by
  have e : @Eq (FVec Ideal S2048x8192 .bf16) (V m c main_v9)
      (truncf .bf16 (weights (F := Ideal) (m ((c : Thread nD τ).loc main_arg1)) (m ((c : Thread nD τ).loc main_arg2)) (m ((c : Thread nD τ).loc main_arg3)) : FVec Ideal S2048x8192 .f32) bitsLt_bf16_f32) := by
    dsimp only [Gen.V, Gen.hostOps0]; after_results <;> rfl
  rw [e]
  exact funext fun i => truncf_apply _ _ i

/-- The third staged array is the bias viewed as one row: at (0, o) it holds the bias at o. -/
theorem V_bias_apply (c : Dev nD) (u : Fin 1) (o : Fin 8192) :
    (V m c main_v10 : S1x8192.Idx → EReal) (ix2 u o) = (m ((c : Thread nD τ).loc main_arg4) : S8192.Idx → EReal) (ix1 o) := by
  have e : @Eq (S1x8192.Idx → EReal) (V m c main_v10)
      (shapeCast S1x8192 (m ((c : Thread nD τ).loc main_arg4) : S8192.Idx → EReal) shapeCasts_S8192_S1x8192) := by
    dsimp only [Gen.V, Gen.hostOps0]; after_results <;> rfl
  rw [e]
  exact shapeCast_a_1a_apply _ shapeCasts_S8192_S1x8192 u o

end Cert.KernelIdeal.HostArrays

end
-- ==== Proof.Blocks.lean ====
/-
  From the blocks the grid points write back to the whole result array.

  The grid has 4 × 8 points; the point with coordinates (j, i) reads rows 512·i … 512·i + 511 of the activations
  (all 2048 columns), columns 2048·j … 2048·j + 2047 of the weight table (all 2048 rows) and of the bias row, and
  writes the 512 × 2048 block (i, j) of the result. Entry (p, q) of what it writes is the body's sum over the 2048
  features of activation times weight plus the bias entry, which is the layer's entry (512·i + p, 2048·j + q): the
  block is the restriction of ONE whole-array function. The 32 blocks cover the 4096 × 8192 result (the point that
  covers (b, o) has block indices b / 512 and o / 2048), so the array ends holding that function everywhere.
-/
import proofs.«144511_j21603685499740_1_alg».proof.Proof.Gen.KernelIdeal.Value
import proofs.«144511_j21603685499740_1_alg».proof.Proof.LinearSpec
import proofs.«144511_j21603685499740_1_alg».proof.Proof.BodyEntry
import proofs.«144511_j21603685499740_1_alg».proof.Proof.HostArrays
import Idealize.ShloMosaic.Lib.Pipeline.Value

noncomputable section

namespace Cert.KernelIdeal.Blocks

open Cert.KernelIdeal Cert.KernelIdeal.Gen Cert.KernelIdeal.HostArrays Cert.KernelIdeal.Body Cert.Linear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer's function of the program's five arguments on core `c`: the activations, the weight table built from
    the hashed table, the indices and the signs, and the bias. -/
abbrev result (c : Dev nD) : S4096x8192.Idx → EReal :=
  linear (m ((c : Thread nD τ).loc main_arg0)) (weights (F := Ideal) (m ((c : Thread nD τ).loc main_arg1)) (m ((c : Thread nD τ).loc main_arg2)) (m ((c : Thread nD τ).loc main_arg3))) (m ((c : Thread nD τ).loc main_arg4))

/-- The printed index maps, decided over the 32 grid points: the activations' block follows the result's block row
    and sits at block column 0; the weight table's and the bias row's blocks sit at block row 0 and follow the
    result's block column; the result's block indices stay below 8 and 4. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the result is some point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-! ## The three input blocks at a point, read where the result's block says -/

/-- The activations' block at point `t`, at (p, k): the activations at row (block row)·512 + p, column k. -/
theorem acts_block (c : Dev nD) (t : Fin cfg0.N) (p : Fin 512) (k : Fin 2048) (b : Fin 4096)
    (hb : b.val = win0_3.index t (0 : Fin 2) * 512 + p.val) :
    (iblk m c 0 t : S512x2048.Idx → EReal) (ix2 p k) = (m ((c : Thread nD τ).loc main_arg0) : S4096x2048.Idx → EReal) (ix2 b k) := by
  unfold iblk
  rw [View.read_apply]
  show (V m c main_v8 : S4096x2048.Idx → EReal) (((cfg0.win 0).blk t).view.emb (ix2 p k)) = _
  rw [V_acts m c]
  refine congrArg (m ((c : Thread nD τ).loc main_arg0) : S4096x2048.Idx → EReal) (funext fun a => Fin.ext ?_)
  obtain ⟨e0, e1, -⟩ := idx_facts t
  match a with
  | ⟨0, _⟩ => show win0_0.index t (0 : Fin 2) * 512 + 1 * p.val = b.val; omega
  | ⟨1, _⟩ => show win0_0.index t (1 : Fin 2) * 2048 + 1 * k.val = k.val; omega

/-- The weight table's block at point `t`, at (k, q): the table at row k, column (block column)·2048 + q. -/
theorem weights_block (c : Dev nD) (t : Fin cfg0.N) (k : Fin 2048) (q : Fin 2048) (o : Fin 8192)
    (ho : o.val = win0_3.index t (1 : Fin 2) * 2048 + q.val) :
    (iblk m c 1 t : S2048x2048.Idx → EReal) (ix2 k q)
      = weights (F := Ideal) (m ((c : Thread nD τ).loc main_arg1)) (m ((c : Thread nD τ).loc main_arg2)) (m ((c : Thread nD τ).loc main_arg3)) (ix2 k o) := by
  unfold iblk
  rw [View.read_apply]
  show (V m c main_v9 : S2048x8192.Idx → EReal) (((cfg0.win 1).blk t).view.emb (ix2 k q)) = _
  rw [V_weights m c]
  refine congrArg (weights (F := Ideal) (m ((c : Thread nD τ).loc main_arg1)) (m ((c : Thread nD τ).loc main_arg2)) (m ((c : Thread nD τ).loc main_arg3))) (funext fun a => Fin.ext ?_)
  obtain ⟨-, -, e2, e3, -⟩ := idx_facts t
  match a with
  | ⟨0, _⟩ => show win0_1.index t (0 : Fin 2) * 2048 + 1 * k.val = k.val; omega
  | ⟨1, _⟩ => show win0_1.index t (1 : Fin 2) * 2048 + 1 * q.val = o.val; omega

/-- The bias row's block at point `t`, at (0, q): the bias at (block column)·2048 + q. -/
theorem bias_block (c : Dev nD) (t : Fin cfg0.N) (q : Fin 2048) (o : Fin 8192)
    (ho : o.val = win0_3.index t (1 : Fin 2) * 2048 + q.val) :
    (iblk m c 2 t : S1x2048.Idx → EReal) (ix2 (0 : Fin 1) q) = (m ((c : Thread nD τ).loc main_arg4) : S8192.Idx → EReal) (ix1 o) := by
  unfold iblk
  rw [View.read_apply]
  show (V m c main_v10 : S1x8192.Idx → EReal) (((cfg0.win 2).blk t).view.emb (ix2 (0 : Fin 1) q)) = _
  have hi : ((cfg0.win 2).blk t).view.emb (ix2 (0 : Fin 1) q) = ix2 (0 : Fin 1) o := by
    obtain ⟨-, -, -, -, e4, e5, -⟩ := idx_facts t
    refine funext fun a => Fin.ext ?_
    match a with
    | ⟨0, _⟩ => show win0_2.index t (0 : Fin 2) * 1 + 1 * 0 = 0; omega
    | ⟨1, _⟩ => show win0_2.index t (1 : Fin 2) * 2048 + 1 * q.val = o.val; omega
  rw [hi]
  exact V_bias_apply m c 0 o

/-! ## What a point writes back -/

/-- The body's entry from blocks that are the arrays' rows and columns is the layer's entry. -/
theorem point_entry (x0 : FVec Ideal S512x2048 .bf16) (x1 : FVec Ideal S2048x2048 .bf16) (x2 : FVec Ideal S1x2048 .f32)
    (X : FVec Ideal ⟨2, ![4096, 2048]⟩ .f32) (W : FVec Ideal ⟨2, ![2048, 8192]⟩ .f32) (B : FVec Ideal ⟨1, ![8192]⟩ .f32)
    (p : Fin 512) (q : Fin 2048) (b : Fin 4096) (o : Fin 8192)
    (h0 : ∀ k : Fin 2048, x0 (ix2 p k) = X (ix2 b k)) (h1 : ∀ k : Fin 2048, x1 (ix2 k q) = W (ix2 k o))
    (h2 : x2 (ix2 (0 : Fin 1) q) = B (ix1 o)) :
    k0_pay1 (F := Ideal) x0 x1 x2 (ix2 p q) = linear X W B (ix2 b o) := by
  refine (pay_entry x0 x1 x2 p q).trans ?_
  rw [linear_ix2, h2]
  exact congrArg (· + B (ix1 o)) (Finset.sum_congr rfl fun k _ => by rw [h0 k, h1 k])

/-- Entry `j` of the body's result at point `t` is the layer's function at `j`'s place in the result array. -/
theorem block_entry (c : Dev nD) (t : Fin cfg0.N) (j : S512x2048.Idx) :
    k0_pay1 (F := Ideal) (iblk m c 0 t) (iblk m c 1 t) (iblk m c 2 t) j = result m c (((cfg0.win 3).blk t).view.emb j) := by
  obtain ⟨p, q, rfl⟩ : ∃ (p : Fin 512) (q : Fin 2048), j = ix2 p q := ⟨j 0, j 1, eq_ix2 j⟩
  obtain ⟨-, -, -, -, -, -, e6, e7⟩ := idx_facts t
  have hi : ((cfg0.win 3).blk t).view.emb (ix2 p q)
      = ix2 (⟨win0_3.index t (0 : Fin 2) * 512 + p.val, by have := p.isLt; omega⟩ : Fin 4096)
          (⟨win0_3.index t (1 : Fin 2) * 2048 + q.val, by have := q.isLt; omega⟩ : Fin 8192) := by
    refine funext fun a => Fin.ext ?_
    match a with
    | ⟨0, _⟩ => show win0_3.index t (0 : Fin 2) * 512 + 1 * p.val = win0_3.index t (0 : Fin 2) * 512 + p.val; omega
    | ⟨1, _⟩ => show win0_3.index t (1 : Fin 2) * 2048 + 1 * q.val = win0_3.index t (1 : Fin 2) * 2048 + q.val; omega
  rw [hi]
  exact point_entry (iblk m c 0 t) (iblk m c 1 t) (iblk m c 2 t)
    (m ((c : Thread nD τ).loc main_arg0)) (weights (F := Ideal) (m ((c : Thread nD τ).loc main_arg1)) (m ((c : Thread nD τ).loc main_arg2)) (m ((c : Thread nD τ).loc main_arg3))) (m ((c : Thread nD τ).loc main_arg4))
    p q _ _ (fun k => acts_block m c t p k _ rfl) (fun k => weights_block m c t k q _ rfl) (bias_block m c t q _ rfl)

/-- WHAT POINT `t` WRITES BACK is block `t` of the layer's function of the arguments. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero hz]
  simp only [View.ld_unit_zero (S := S512x2048) hz, View.ld_unit_zero (S := S2048x2048) hz, View.ld_unit_zero (S := S1x2048) hz]
  funext j
  exact block_entry m c t j

/-! ## The cover, the final array, the run -/

/-- An index of the result is in point `t`'s block iff each coordinate is in the block's range on its axis. -/
theorem mem_blk (t : Fin cfg0.N) (i : S4096x8192.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v11).slice (win0_3.rect t)).set ↔ _
  rw [View.set_slice_whole, Rect.mem_set_unit]
  exact Iff.rfl

/-- Every index of the result lies in the block of the point whose block indices are its row / 512 and column / 2048. -/
theorem cover (i : S4096x8192.Idx) : ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the run is the layer's function of the arguments. -/
theorem final (c : Dev nD) : (dats m 0 c).arrAt 3 cfg0.N = result m c :=
  (dats m 0 c).arrAt_eq_of_cover 3 (result m c) (fun t _ => flushed_eq m c t) cover

/-- The kernel program's run, read: the result at the layer's function of the arguments, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Blocks

end
-- ==== Proof.RefLinear.lean ====
/-
  The reference computes the layer's function.

  Its last stage adds to the matrix product `x @ W` the bias broadcast along the rows; read at an index (b, o) the
  product is the sum over k of x[b, k] · W[k, o] and the broadcast bias is bias[o], which is the layer's entry
  (b, o). The weight table W stays the reference's own stage (the gather of the hashed table times the sign
  matrix), unopened.
-/
import proofs.«144511_j21603685499740_1_alg».proof.Proof.Gen.ReferenceIdeal.Read
import proofs.«144511_j21603685499740_1_alg».proof.Proof.LinearSpec

noncomputable section

namespace Cert.ReferenceIdeal.RefValue

open Cert.ReferenceIdeal Cert.ReferenceIdeal.Read Idealize.ShloMosaic Idealize.ShloMosaic.ValueIdx Cert.Linear

/-- The reference's result, as a function of its five arguments, is the layer's function of the activations,
    of the weight table the reference builds (its stage `val_main_v7`), and of the bias. -/
theorem result_eq (x0 : (⟨S4096x2048, .f32⟩ : BufTy).Contents (Elt Ideal)) (x1 : (⟨S1677721, .f32⟩ : BufTy).Contents (Elt Ideal))
    (x2 : (⟨S2048x8192, .i32⟩ : BufTy).Contents (Elt Ideal)) (x3 : (⟨S2048x8192, .f32⟩ : BufTy).Contents (Elt Ideal))
    (x4 : (⟨S8192, .f32⟩ : BufTy).Contents (Elt Ideal)) :
    val_main_v11 (F := Ideal) x0 x1 x2 x3 x4 = linear x0 (val_main_v7 (F := Ideal) x1 x2 x3) x4 := by
  funext i
  rw [val_main_v11_apply, val_main_v8_apply, val_main_v10_apply, val_main_v9_apply]
  -- the product's two operand indices at (i, k): row `i 0` of x at column k, row k of W at column `i 1`
  have el : ∀ k : Fin 2048, lidx_main_v8 i k = ix2 (⟨(i 0).val, (i 0).isLt⟩ : Fin 4096) k := fun k =>
    funext fun a => Fin.ext (by match a with | ⟨0, _⟩ => rfl | ⟨1, _⟩ => rfl)
  have er : ∀ k : Fin 2048, ridx_main_v8 i k = ix2 k (⟨(i 1).val, (i 1).isLt⟩ : Fin 8192) := fun k =>
    funext fun a => Fin.ext (by match a with | ⟨0, _⟩ => rfl | ⟨1, _⟩ => rfl)
  -- the bias broadcast twice is read at the column
  have eb : idx_main_v9 (idx_main_v10 i) = ix1 (⟨(i 1).val, (i 1).isLt⟩ : Fin 8192) :=
    funext fun a => Fin.ext (by match a with | ⟨0, _⟩ => rfl)
  simp only [el, er, eb]
  rfl

end Cert.ReferenceIdeal.RefValue

end
-- ==== Proof.lean ====
/-
  A hashed-weight linear layer: the tiled kernel against `x @ W + bias`.

  Both programs first build the weight table W[i, o] = weight[IDX[i, o]] · G[i, o] on the host, by the same
  operations (a negative index moved up by the table's length, the gather, the product with the sign matrix).
  The reference then takes the matrix product of the activations with W and adds the bias broadcast along the
  rows. The kernel rounds the activations and W to bf16 — the identity on the extended reals —, views the bias as
  one row, and on a 4 × 8 grid computes each 512 × 2048 block of the result as the product of a block of rows of the
  activations with a block of columns of W, into a zero accumulator, plus the matching piece of the bias row.

  On the extended reals both results are, entry by entry,

      out[b, o] = Σ_k x[b, k] · W[k, o] + bias[o]          (k over the 2048 input features):

  a matrix product is the sum of products, an accumulator that starts at zero adds nothing, every block of the
  kernel's result is the restriction of this one function to the block, and the 32 blocks cover the array. The two
  sides are the SAME sum in the same arrangement, so nothing beyond 0 + s = s is used of the arithmetic, and the
  inputs' finiteness is never needed. The idealization rewrote no operation of the kernel, so there is nothing to
  preserve.
-/
import proofs.«144511_j21603685499740_1_alg».proof.Defs
import proofs.«144511_j21603685499740_1_alg».proof.Proof.Gen.Kernel
import proofs.«144511_j21603685499740_1_alg».proof.Proof.Gen.Kernel.Frame
import proofs.«144511_j21603685499740_1_alg».proof.Proof.Gen.KernelIdeal
import proofs.«144511_j21603685499740_1_alg».proof.Proof.Gen.KernelIdeal.Frame
import proofs.«144511_j21603685499740_1_alg».proof.Proof.Gen.KernelIdeal.Value
import proofs.«144511_j21603685499740_1_alg».proof.Proof.Gen.ReferenceIdeal
import proofs.«144511_j21603685499740_1_alg».proof.Proof.Gen.ReferenceIdeal.Run
import proofs.«144511_j21603685499740_1_alg».proof.Proof.Gen.ReferenceIdeal.Read
import proofs.«144511_j21603685499740_1_alg».proof.Proof.Gen.Pre_finite_inputs
import proofs.«144511_j21603685499740_1_alg».proof.Proof.Blocks
import proofs.«144511_j21603685499740_1_alg».proof.Proof.RefLinear

noncomputable section

namespace Cert.Proof

open Idealize.ShloMosaic Idealize.SL.Sem

/-- The two programs build the weight table by the same host operations of the hashed table, the index array and
    the sign matrix: the kernel program's table is the reference's stage. -/
theorem weights_eq (w : (⟨Cert.KernelIdeal.S1677721, .f32⟩ : BufTy).Contents (Elt Ideal))
    (idx : (⟨Cert.KernelIdeal.S2048x8192, .i32⟩ : BufTy).Contents (Elt Ideal))
    (g : (⟨Cert.KernelIdeal.S2048x8192, .f32⟩ : BufTy).Contents (Elt Ideal)) :
    Cert.ReferenceIdeal.Read.val_main_v7 (F := Ideal) w idx g = Cert.KernelIdeal.HostArrays.weights (F := Ideal) w idx g := rfl

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories that agree on the five arguments, the kernel's result array ends at the layer's function of the
    arguments (the blocks its grid points write back, put together) and the reference's at the same function (its
    last stage read at an index), the weight table being one and the same array on both sides. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq,
    (hagree c).1, (hagree c).2.1, (hagree c).2.2.1, (hagree c).2.2.2.1, (hagree c).2.2.2.2, weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
